-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x1024 : Shape := ⟨2, ![1024, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S32768x1024 .f32) (main_arg1 : FVec F S1024x1024 .f32) (main_arg2 : FVec F S1024x1024 .f32) (main_arg3 : FVec F S1024x1024 .f32) (main_arg4 : FVec F S1024x1024 .f32) (main_arg5 : FVec F S1024x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S32768x1024 : Shape := ⟨2, ![32768, 1024]⟩
abbrev S1024x1024 : Shape := ⟨2, ![1024, 1024]⟩
abbrev S256x1024 : Shape := ⟨2, ![256, 1024]⟩

abbrev nBuf : Space → Nat
  | .hbm => 12
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1024_S256x1024_0_0 : ∀ a, (![0, 0] : Fin 2 → Nat) a + S256x1024.size a ≤ S1024x1024.size a
  h_S256x1024 : 0 < S256x1024.numel
  inb_S1024x1024_S256x1024_256_0 : ∀ a, (![256, 0] : Fin 2 → Nat) a + S256x1024.size a ≤ S1024x1024.size a
  inb_S1024x1024_S256x1024_512_0 : ∀ a, (![512, 0] : Fin 2 → Nat) a + S256x1024.size a ≤ S1024x1024.size a
  inb_S1024x1024_S256x1024_768_0 : ∀ a, (![768, 0] : Fin 2 → Nat) a + S256x1024.size a ≤ S1024x1024.size a
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S32768x1024.size a
  hwx0_6 : ∀ i : grid0.Coords, EltTy.bits .f32 = 32 ∨ (Rect.block (s := S32768x1024) S1024x1024.size (cc0_transform_6 i) (hinb0_6 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1024x1024 : Shape := ⟨2, ![1024, 1024]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S32768x1024, .f32⟩
  | .hbm, ⟨7, _⟩ => ⟨S_, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S32768x1024, .i1⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S_, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S32768x1024, .i1⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S_, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S32768x1024, .f32⟩
  | .hbm, ⟨42, _⟩ => ⟨S32768x1024, .i1⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S32768x1024, .f32⟩
  | .hbm, ⟨50, _⟩ => ⟨S32768x1024, .f32⟩
  | .hbm, ⟨51, _⟩ => ⟨S32768x1024, .f32⟩
  | .hbm, ⟨52, _⟩ => ⟨S_, .f32⟩
  | .hbm, ⟨53, _⟩ => ⟨S32768x1024, .f32⟩
  | .hbm, ⟨54, _⟩ => ⟨S32768x1024, .f32⟩
  | .hbm, ⟨55, _⟩ => ⟨S32768x1024, .f32⟩
  | .hbm, ⟨56, _⟩ => ⟨S32768x1024, .f32⟩
  | .hbm, ⟨57, _⟩ => ⟨S32768x1024, .i1⟩
  | .hbm, ⟨58, _⟩ => ⟨S32768x1024, .f32⟩
  | .hbm, ⟨59, _⟩ => ⟨S32768x1024, .f32⟩
  | .hbm, ⟨60, _⟩ => ⟨S32768x1024, .f32⟩
  | .hbm, ⟨61, _⟩ => ⟨S32768x1024, .f32⟩
  | .hbm, ⟨62, _⟩ => ⟨S32768x1024, .f32⟩
  | .hbm, ⟨63, _⟩ => ⟨S32768x1024, .f32⟩
  | .hbm, ⟨64, _⟩ => ⟨S32768x1024, .f32⟩
  | .hbm, ⟨65, _⟩ => ⟨S32768x1024, .f32⟩
  | .hbm, ⟨66, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_v1 : Ref sig .tc := ⟨.hbm, 20, rfl⟩
abbrev main_v2 : Ref sig .tc := ⟨.hbm, 21, rfl⟩
abbrev main_call1_cst : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_v3 : Ref sig .tc := ⟨.hbm, 35, rfl⟩
abbrev main_v4 : Ref sig .tc := ⟨.hbm, 36, rfl⟩
abbrev main_call2_cst : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_v6 : Ref sig .tc := ⟨.hbm, 44, rfl⟩
abbrev main_call2_v7 : Ref sig .tc := ⟨.hbm, 45, rfl⟩
abbrev main_call2_v8 : Ref sig .tc := ⟨.hbm, 46, rfl⟩
abbrev main_call2_v9 : Ref sig .tc := ⟨.hbm, 47, rfl⟩
abbrev main_call2_v10 : Ref sig .tc := ⟨.hbm, 48, rfl⟩
abbrev main_call2_v11 : Ref sig .tc := ⟨.hbm, 49, rfl⟩
abbrev main_v5 : Ref sig .tc := ⟨.hbm, 50, rfl⟩
abbrev main_v6 : Ref sig .tc := ⟨.hbm, 51, rfl⟩
abbrev main_call3_cst : Ref sig .tc := ⟨.hbm, 52, rfl⟩
abbrev main_call3_v0 : Ref sig .tc := ⟨.hbm, 53, rfl⟩
abbrev main_call3_v1 : Ref sig .tc := ⟨.hbm, 54, rfl⟩
abbrev main_call3_v2 : Ref sig .tc := ⟨.hbm, 55, rfl⟩
abbrev main_call3_v3 : Ref sig .tc := ⟨.hbm, 56, rfl⟩
abbrev main_call3_v4 : Ref sig .tc := ⟨.hbm, 57, rfl⟩
abbrev main_call3_v5 : Ref sig .tc := ⟨.hbm, 58, rfl⟩
abbrev main_call3_v6 : Ref sig .tc := ⟨.hbm, 59, rfl⟩
abbrev main_call3_v7 : Ref sig .tc := ⟨.hbm, 60, rfl⟩
abbrev main_call3_v8 : Ref sig .tc := ⟨.hbm, 61, rfl⟩
abbrev main_call3_v9 : Ref sig .tc := ⟨.hbm, 62, rfl⟩
abbrev main_call3_v10 : Ref sig .tc := ⟨.hbm, 63, rfl⟩
abbrev main_call3_v11 : Ref sig .tc := ⟨.hbm, 64, rfl⟩
abbrev main_v7 : Ref sig .tc := ⟨.hbm, 65, rfl⟩
abbrev main_v8 : Ref sig .tc := ⟨.hbm, 66, rfl⟩

abbrev nD : Nat := 1
abbrev τ : Topo := Topo.v7x

variable {F : FTy → Type} [FloatOps F]

class Facts₀ : Prop where
  bcast_S_S32768x1024 : S_.BroadcastsInDim S32768x1024 (![] : Fin 0 → Fin S32768x1024.rank)
  dot_S32768x1024_S1024x1024_S32768x1024_1_0_0_1_n_n_wf : DotDims.WF S32768x1024 S1024x1024 S32768x1024 [1] [0] [0] [1] [] []

variable [Facts₀]

def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf

class Facts : Prop extends Facts₀ where

variable [Facts]
-- ==== Proof.LibMatmul.lean ====
/-
  A rank-2 matrix product read at an index, at the exact extended reals: when the dimension numbers contract the
  left operand's column axis with the right operand's row axis and keep the other two axes in order, the product
  accumulated into zeros is, at row `p` and column `q`, the sum over `k` of `lhs (p, k) · rhs (k, q)` — a sum over
  the contracted extent itself, not over the contraction's own index type.
-/
import Idealize.ShloMosaic.PureOps.Ideal.Laws
import Idealize.ShloMosaic.Lib.ValueIdx

noncomputable section

namespace Cert.LibMatmul

open Idealize.ShloMosaic Idealize.ShloMosaic.ValueIdx

/-- A product `[a, K] × [K, b] → [a, b]` into a zero accumulator, at an output index `j`: the four coordinate facts
    say which operand entries the dimension numbers pair at the contraction index (the left one at `(j 0, k)`, the
    right one at `(k, j 1)`); the contraction has one axis, of extent `K`, and the sum is re-indexed along it. -/
theorem matmul_zero_ix2 {a K b : Nat} {φ₁ φ₂ : FTy}
    (d : DotDims ⟨2, ![a, K]⟩ ⟨2, ![K, b]⟩ ⟨2, ![a, b]⟩) (prec : Option ContractPrecision)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.matmul d prec lhs rhs (constant ⟨2, ![a, b]⟩ .f32 0x00000000#32) j
      = ∑ k : Fin K, lhs (ix2 (j 0) k) * rhs (ix2 k (j 1)) := by
  rw [Ideal.matmul_constant_zero_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibMatmul

end
-- ==== Proof.Softplus.lean ====
/-
  Softplus on the extended reals, in the numerically stable arrangement both programs use:
  `softplus z = max z 0 + log (1 + exp (−|z|))`, with `|z| = max z (−z)`.
  The kernel spells `−|z|` as `0 − |z|` and writes 0 as the zero word; the reference subtracts 0 from `z` first,
  takes `−|z − 0|`, and guards the whole by a test `z − 0 ≠ z − 0` (true only of a NaN), which no extended real
  satisfies, so its other branch `z + 0` is never taken. Both are `softplus z`: the zero word is 0, `0 − a = −a`
  and `z − 0 = z` on the extended reals, infinities included.
-/
import Idealize.ShloMosaic.PureOps.Ideal.Laws

noncomputable section

namespace Cert.Mlp

open Idealize.ShloMosaic

/-- `max z 0 + log (1 + exp (−|z|))` on the extended reals. -/
def softplus (z : EReal) : EReal := max z 0 + Ideal.log1p (Ideal.exp (-(max z (-z))))

/-- The kernel's arrangement, one entry: `max z 0w + log1p (exp (0w − |z|))` with `0w` the zero word. -/
theorem softplus_of_zero_sub (z : Ideal .f32) :
    FloatOps.addf (FloatOps.maximumf z (Scalar.ofBits (F := Ideal) .f32 0x00000000#32))
      (FloatOps.log1p (FloatOps.exp (FloatOps.subf (Scalar.ofBits (F := Ideal) .f32 0x00000000#32) (FloatOps.absf z))))
      = softplus z := by
  show max z (Ideal.ofBits .f32 0x00000000#32)
      + Ideal.log1p (Ideal.exp (Ideal.ofBits .f32 0x00000000#32 - max z (-z))) = softplus z
  rw [Ideal.ofBits_zero_f32, zero_sub]
  rfl

/-- The reference's arrangement, one entry: the guarded form over `z − 0w`. -/
theorem softplus_of_guarded (z : Ideal .f32) :
    Scalar.select
      (FloatOps.cmpf .une (FloatOps.subf z (FloatOps.ofBits (F := Ideal) .f32 0x00000000#32))
        (FloatOps.subf z (FloatOps.ofBits (F := Ideal) .f32 0x00000000#32)))
      (FloatOps.addf z (FloatOps.ofBits (F := Ideal) .f32 0x00000000#32))
      (FloatOps.addf (FloatOps.maximumf z (FloatOps.ofBits (F := Ideal) .f32 0x00000000#32))
        (FloatOps.hostUnary .log1p (FloatOps.hostUnary .exp (FloatOps.hostNegf (FloatOps.hostAbsf
          (FloatOps.subf z (FloatOps.ofBits (F := Ideal) .f32 0x00000000#32)))))))
      = softplus z := by
  show Scalar.select (Ideal.cmp .une (z - Ideal.ofBits .f32 0x00000000#32) (z - Ideal.ofBits .f32 0x00000000#32))
      (z + Ideal.ofBits .f32 0x00000000#32)
      (max z (Ideal.ofBits .f32 0x00000000#32)
        + Ideal.log1p (Ideal.exp (-(max (z - Ideal.ofBits .f32 0x00000000#32) (-(z - Ideal.ofBits .f32 0x00000000#32))))))
      = softplus z
  rw [Ideal.ofBits_zero_f32, sub_zero]
  have hc : Ideal.cmp .une z z = 0#1 := by simp [Ideal.cmp]
  rw [hc]
  rfl

end Cert.Mlp

end
-- ==== Proof.RowMlp.lean ====
/-
  The five-layer perceptron row by row, on the extended reals. A row `u` (1024 entries) times a weight matrix `w`
  (1024 × 1024) is the row `q ↦ ∑ k, u k · w (k, q)`; a hidden layer applies softplus to each entry of that; the
  network is four hidden layers and one last product. Applied to a matrix with any number of rows it acts on each
  row by itself — which is why cutting the rows into blocks, and the blocks into slabs, changes nothing.
  `mlp_of_layers` recognises the network in ANY ten arrays of which each is, entry by entry, the product of the
  previous one's row with a weight matrix, or the softplus of the previous one: both programs are of that form
  (the reference over all 32768 rows, the kernel over each slab of 256 rows).
-/
import Idealize.ShloMosaic.Lib.ValueIdx
import proofs.«109479_j69286412419483_2_alg».proof.Proof.Softplus

noncomputable section

namespace Cert.Mlp

open Idealize.ShloMosaic Idealize.ShloMosaic.ValueIdx

/-- A 1024 × 1024 weight matrix. -/
abbrev Wt : Type := (⟨2, ![1024, 1024]⟩ : Shape).Idx → EReal

/-- A matrix of `a` rows of 1024 entries. -/
abbrev Rows (a : Nat) : Type := (⟨2, ![a, 1024]⟩ : Shape).Idx → EReal

/-- Row `p` of a matrix. -/
def row {a : Nat} (H : Rows a) (p : Fin a) : Fin 1024 → EReal := fun k => H (ix2 p k)

/-- A row times a weight matrix: entry `q` is `∑ k, u k · w (k, q)`. -/
def rowDot (u : Fin 1024 → EReal) (w : Wt) : Fin 1024 → EReal := fun q => ∑ k : Fin 1024, u k * w (ix2 k q)

/-- One hidden layer on a row: softplus of each entry of the product. -/
def hidden (u : Fin 1024 → EReal) (w : Wt) : Fin 1024 → EReal := fun q => softplus (rowDot u w q)

/-- The network on one row: four hidden layers and a last product. -/
def mlpRow (u : Fin 1024 → EReal) (w1 w2 w3 w4 w5 : Wt) : Fin 1024 → EReal :=
  rowDot (hidden (hidden (hidden (hidden u w1) w2) w3) w4) w5

/-- The network on a matrix: entry `(p, q)` is entry `q` of the network applied to row `p`. -/
def mlp {a : Nat} (x : Rows a) (w1 w2 w3 w4 w5 : Wt) : Rows a :=
  fun i => mlpRow (row x (i 0)) w1 w2 w3 w4 w5 (i 1)

/-- If every entry `(p, q)` of `Z` is the product of row `p` of `H` with column `q` of `w`, then row `p` of `Z`
    is row `p` of `H` times `w`. -/
theorem row_of_product {a : Nat} (H Z : Rows a) (w : Wt)
    (hZ : ∀ j, Z j = ∑ k : Fin 1024, H (ix2 (j 0) k) * w (ix2 k (j 1))) (p : Fin a) :
    row Z p = rowDot (row H p) w := by
  funext q
  exact hZ (ix2 p q)

/-- If moreover `S` is the softplus of `Z` entry by entry, row `p` of `S` is the hidden layer of row `p` of `H`. -/
theorem row_of_hidden {a : Nat} (H Z S : Rows a) (w : Wt)
    (hZ : ∀ j, Z j = ∑ k : Fin 1024, H (ix2 (j 0) k) * w (ix2 k (j 1)))
    (hS : ∀ j, S j = softplus (Z j)) (p : Fin a) :
    row S p = hidden (row H p) w := by
  funext q
  show S (ix2 p q) = softplus (rowDot (row H p) w q)
  rw [hS, ← row_of_product H Z w hZ p]
  rfl

/-- Ten arrays linked layer by layer — products `z₁ … z₅` and their softplus `s₁ … s₄` — end in the network of the
    first. -/
theorem mlp_of_layers {a : Nat} (x z1 s1 z2 s2 z3 s3 z4 s4 z5 : Rows a) (w1 w2 w3 w4 w5 : Wt)
    (h1 : ∀ j, z1 j = ∑ k : Fin 1024, x (ix2 (j 0) k) * w1 (ix2 k (j 1))) (g1 : ∀ j, s1 j = softplus (z1 j))
    (h2 : ∀ j, z2 j = ∑ k : Fin 1024, s1 (ix2 (j 0) k) * w2 (ix2 k (j 1))) (g2 : ∀ j, s2 j = softplus (z2 j))
    (h3 : ∀ j, z3 j = ∑ k : Fin 1024, s2 (ix2 (j 0) k) * w3 (ix2 k (j 1))) (g3 : ∀ j, s3 j = softplus (z3 j))
    (h4 : ∀ j, z4 j = ∑ k : Fin 1024, s3 (ix2 (j 0) k) * w4 (ix2 k (j 1))) (g4 : ∀ j, s4 j = softplus (z4 j))
    (h5 : ∀ j, z5 j = ∑ k : Fin 1024, s4 (ix2 (j 0) k) * w5 (ix2 k (j 1))) :
    z5 = mlp x w1 w2 w3 w4 w5 := by
  have hrow : ∀ p : Fin a, row z5 p = mlpRow (row x p) w1 w2 w3 w4 w5 := fun p => by
    rw [row_of_product s4 z5 w5 h5 p, row_of_hidden s3 z4 s4 w4 h4 g4 p, row_of_hidden s2 z3 s3 w3 h3 g3 p,
      row_of_hidden s1 z2 s2 w2 h2 g2 p, row_of_hidden x z1 s1 w1 h1 g1 p]
    rfl
  funext i
  exact (congrArg z5 (eq_ix2 i)).trans (congrFun (hrow (i 0)) (i 1))

/-- The network reads one row: if row `j 0` of `xs` is row `i 0` of `X` and the columns `j 1`, `i 1` are the same
    number, the network of `xs` at `j` is the network of `X` at `i` — whatever the other rows, and whatever the
    numbers of rows of the two matrices (a block against the whole array). -/
theorem mlp_eq_of_row {a b : Nat} (xs : Rows a) (X : Rows b) (w1 w2 w3 w4 w5 : Wt)
    (j : (⟨2, ![a, 1024]⟩ : Shape).Idx) (i : (⟨2, ![b, 1024]⟩ : Shape).Idx)
    (hrow : ∀ k : Fin 1024, xs (ix2 (j 0) k) = X (ix2 (i 0) k)) (hcol : (j 1).val = (i 1).val) :
    mlp xs w1 w2 w3 w4 w5 j = mlp X w1 w2 w3 w4 w5 i :=
  (congrFun (congrArg (fun u => mlpRow u w1 w2 w3 w4 w5) (funext hrow : row xs (j 0) = row X (i 0))) (j 1)).trans
    (congrArg (mlpRow (row X (i 0)) w1 w2 w3 w4 w5) (Fin.ext hcol))

end Cert.Mlp

end
-- ==== Proof.SlabChain.lean ====
/-
  One slab of the kernel's body. The body cuts its 1024-row block into four slabs of 256 rows and sends each through
  the same chain: multiply by a weight matrix (the left operand first rounded to bf16, which at the exact values is
  the identity; the product accumulated into zeros), apply softplus entry by entry, four times over, and multiply
  once more. Read entry by entry, a product is `∑ k, h (p, k) · w (k, q)` and a softplus stage is `softplus` of the
  entry, so the chain is the row-wise network `Cert.Mlp.mlp` of the slab. The body's four stored values are this
  chain of the four slabs: the printed program cuts each chain at a different statement, and putting the cuts back
  together is unfolding definitions.
-/
import proofs.«109479_j69286412419483_2_alg».proof.Proof.Gen.KernelIdeal.Skeleton
import proofs.«109479_j69286412419483_2_alg».proof.Proof.LibMatmul
import proofs.«109479_j69286412419483_2_alg».proof.Proof.RowMlp

noncomputable section

namespace Cert.KernelIdeal.Slab

open Cert.KernelIdeal Cert.KernelIdeal.Gen Idealize.ShloMosaic Idealize.ShloMosaic.ValueIdx Cert.Mlp

/-- One product of the chain: `h` (256 × 1024) times `w` (1024 × 1024) into zeros. -/
def mm (h : FVec Ideal S256x1024 .f32) (w : FVec Ideal S1024x1024 .bf16) : FVec Ideal S256x1024 .f32 :=
  matmul dot_S256x1024_S1024x1024_S256x1024_1_0_0_1_n_n none (truncf .bf16 h bitsLt_bf16_f32) w
    (constant S256x1024 .f32 0x00000000#32)

/-- One softplus stage of the chain, as the body spells it: `max z 0 + log1p (exp (0 − |z|))`. -/
def sp (z : FVec Ideal S256x1024 .f32) : FVec Ideal S256x1024 .f32 :=
  addf (maximumf z (broadcast S256x1024 (Scalar.ofBits .f32 0x00000000#32)))
    (log1p (exp (subf (broadcast S256x1024 (Scalar.ofBits .f32 0x00000000#32)) (absf z))))

/-- The chain: four products each followed by softplus, and a fifth product. -/
def chain (xs : FVec Ideal S256x1024 .f32) (w1 w2 w3 w4 w5 : FVec Ideal S1024x1024 .bf16) : FVec Ideal S256x1024 .f32 :=
  mm (sp (mm (sp (mm (sp (mm (sp (mm xs w1)) w2)) w3)) w4)) w5

/-! The product's dimension numbers pair the left operand's entry `(p, k)` with the right operand's `(k, q)`. -/

theorem lhs_row (j : S256x1024.Idx) (q : dot_S256x1024_S1024x1024_S256x1024_1_0_0_1_n_n.contr.Idx) :
    (dot_S256x1024_S1024x1024_S256x1024_1_0_0_1_n_n.lhsIdx j q 0).val = (j 0).val := by
  unfold DotDims.lhsIdx
  rw [dif_neg (show ¬(0 : Fin S256x1024.rank) ∈ dot_S256x1024_S1024x1024_S256x1024_1_0_0_1_n_n.lhsBatch by decide),
    dif_pos (show (0 : Fin S256x1024.rank) ∈ dot_S256x1024_S1024x1024_S256x1024_1_0_0_1_n_n.lhsNonContracting by decide)]
  rfl

theorem lhs_col (j : S256x1024.Idx) (q : dot_S256x1024_S1024x1024_S256x1024_1_0_0_1_n_n.contr.Idx) :
    (dot_S256x1024_S1024x1024_S256x1024_1_0_0_1_n_n.lhsIdx j q 1).val = (q ⟨0, by decide⟩).val :=
  dot_S256x1024_S1024x1024_S256x1024_1_0_0_1_n_n.lhsIdx_val_of_single rfl j q

theorem rhs_row (j : S256x1024.Idx) (q : dot_S256x1024_S1024x1024_S256x1024_1_0_0_1_n_n.contr.Idx) :
    (dot_S256x1024_S1024x1024_S256x1024_1_0_0_1_n_n.rhsIdx j q 0).val = (q ⟨0, by decide⟩).val :=
  dot_S256x1024_S1024x1024_S256x1024_1_0_0_1_n_n.rhsIdx_val_of_single rfl j q

theorem rhs_col (j : S256x1024.Idx) (q : dot_S256x1024_S1024x1024_S256x1024_1_0_0_1_n_n.contr.Idx) :
    (dot_S256x1024_S1024x1024_S256x1024_1_0_0_1_n_n.rhsIdx j q 1).val = (j 1).val := by
  unfold DotDims.rhsIdx
  rw [dif_neg (show ¬(1 : Fin S1024x1024.rank) ∈ dot_S256x1024_S1024x1024_S256x1024_1_0_0_1_n_n.rhsBatch by decide),
    dif_pos (show (1 : Fin S1024x1024.rank) ∈ dot_S256x1024_S1024x1024_S256x1024_1_0_0_1_n_n.rhsNonContracting by decide)]
  rfl

/-- A product of the chain at entry `j = (p, q)`: `∑ k, h (p, k) · w (k, q)`. -/
theorem mm_apply (h : FVec Ideal S256x1024 .f32) (w : FVec Ideal S1024x1024 .bf16) (j : S256x1024.Idx) :
    mm h w j = ∑ k : Fin 1024, h (ix2 (j 0) k) * w (ix2 k (j 1)) :=
  Cert.LibMatmul.matmul_zero_ix2 dot_S256x1024_S1024x1024_S256x1024_1_0_0_1_n_n none rfl rfl
    lhs_row lhs_col rhs_row rhs_col (truncf .bf16 h bitsLt_bf16_f32) w j

/-- A softplus stage of the chain at an entry. -/
theorem sp_apply (z : FVec Ideal S256x1024 .f32) (j : S256x1024.Idx) : sp z j = softplus (z j) :=
  softplus_of_zero_sub (z j)

/-- The chain of a slab is the row-wise network of the slab. -/
theorem chain_eq (xs : FVec Ideal S256x1024 .f32) (w1 w2 w3 w4 w5 : FVec Ideal S1024x1024 .bf16) :
    chain xs w1 w2 w3 w4 w5 = mlp (a := 256) xs w1 w2 w3 w4 w5 :=
  mlp_of_layers (a := 256) xs (mm xs w1) (sp (mm xs w1)) (mm (sp (mm xs w1)) w2) (sp (mm (sp (mm xs w1)) w2))
    (mm (sp (mm (sp (mm xs w1)) w2)) w3) (sp (mm (sp (mm (sp (mm xs w1)) w2)) w3))
    (mm (sp (mm (sp (mm (sp (mm xs w1)) w2)) w3)) w4) (sp (mm (sp (mm (sp (mm (sp (mm xs w1)) w2)) w3)) w4))
    (chain xs w1 w2 w3 w4 w5) w1 w2 w3 w4 w5
    (mm_apply _ _) (sp_apply _) (mm_apply _ _) (sp_apply _) (mm_apply _ _) (sp_apply _) (mm_apply _ _) (sp_apply _)
    (mm_apply _ _)

/-! ## The four stored values are the chain of the four slabs -/

/-- The store to rows 0–255: the slab's chain, cut after the third product. -/
theorem stored_first (v0 v2 v4 v6 v8 : Vec Ideal S1024x1024 .bf16) (v10 : Vec Ideal S256x1024 .f32) :
    k0_pay10 (k0_pay5 v6) (k0_pay6 v8) (k0_pay8 v0 v2 v4 v10) (k0_pay9 v0 v2 v4 v10)
      = chain v10 (k0_pay2 v0) (k0_pay3 v2) (k0_pay4 v4) (k0_pay5 v6) (k0_pay6 v8) := rfl

/-- The store to rows 256–511. -/
theorem stored_second (v1 v3 v5 v7 v9 : FVec Ideal S1024x1024 .bf16) (v54 : Vec Ideal S256x1024 .f32) :
    k0_pay14 v7 v9 (k0_pay12 v1 v3 v5 v54) (k0_pay13 v1 v3 v5 v54) (Scalar.ofBits .f32 0x00000000#32)
      = chain v54 v1 v3 v5 v7 v9 := rfl

/-- The store to rows 512–767. -/
theorem stored_third (v1 v3 v5 v7 v9 : FVec Ideal S1024x1024 .bf16) (v98 : Vec Ideal S256x1024 .f32) :
    k0_pay17 v7 v9 (k0_pay15 v1 v3 v5 v98) (k0_pay16 v1 v3 v5 v98) = chain v98 v1 v3 v5 v7 v9 := rfl

/-- The store to rows 768–1023. -/
theorem stored_fourth (v1 v3 v5 v7 v9 : FVec Ideal S1024x1024 .bf16) (v142 : Vec Ideal S256x1024 .f32) :
    k0_pay1 v7 v9 (k0_pay18 v1 v3 v5 v142) (Scalar.ofBits .f32 0x00000000#32) = chain v142 v1 v3 v5 v7 v9 := rfl

end Cert.KernelIdeal.Slab

end
-- ==== Proof.BlockBody.lean ====
/-
  The body on one block. A grid point's block of `x` has 1024 rows; the body writes its output block by four stores,
  rows 0–255, 256–511, 512–767 and 768–1023, each the chain of the slab of `x` with the same rows. Since the network
  acts on each row by itself, entry `(p, q)` of the chain of the slab at row offset `o` is entry `(o + p, q)` of the
  network of the whole block; the four stores tile the block, so the block they leave is the network of the block.
  The weight blocks enter the chain through a load of the whole staging buffer and a shape cast to the same shape:
  both are the identity.
-/
import proofs.«109479_j69286412419483_2_alg».proof.Proof.Gen.KernelIdeal.Frame
import proofs.«109479_j69286412419483_2_alg».proof.Proof.SlabChain
import Idealize.ShloMosaic.Lib.Pipeline.Value

noncomputable section

namespace Cert.KernelIdeal.Block

open Cert.KernelIdeal Cert.KernelIdeal.Gen Cert.KernelIdeal.Slab Idealize.ShloMosaic Idealize.ShloMosaic.ValueIdx Cert.Mlp

/-- Entry `(p, q)` of the slab of 256 rows at row offset `o` sits at `(o + p, q)` in the block. -/
theorem slab_entry (o : Nat) (inb : ∀ a, (![o, 0] : Fin 2 → Nat) a + S256x1024.size a ≤ S1024x1024.size a)
    (ho : o + 256 ≤ 1024) (p : Fin 256) (q : Fin 1024) :
    (Rect.unit (s := S1024x1024) ![o, 0] S256x1024.size inb).emb (ix2 p q)
      = ix2 (⟨o + p.val, by omega⟩ : Fin 1024) q := by
  funext a
  apply Fin.ext
  match a with
  | ⟨0, _⟩ => show o + 1 * p.val = o + p.val; omega
  | ⟨1, _⟩ => show 0 + 1 * q.val = q.val; omega

/-- The chain of the slab at row offset `o`, at a slab entry, is the network of the block at that entry's place in
    the block: row `p` of the slab IS row `o + p` of the block. -/
theorem chain_slab (X : Vec Ideal S1024x1024 .f32) (w1 w2 w3 w4 w5 : Wt) (o : Nat)
    (inb : ∀ a, (![o, 0] : Fin 2 → Nat) a + S256x1024.size a ≤ S1024x1024.size a) (ho : o + 256 ≤ 1024)
    (x : S256x1024.Idx) :
    chain (View.ld X (Rect.unit (s := S1024x1024) ![o, 0] S256x1024.size inb)) w1 w2 w3 w4 w5 x
      = mlp (a := 1024) X w1 w2 w3 w4 w5 ((Rect.unit (s := S1024x1024) ![o, 0] S256x1024.size inb).emb x) := by
  obtain ⟨p, q, rfl⟩ : ∃ (p : Fin 256) (q : Fin 1024), x = ix2 p q := ⟨x 0, x 1, eq_ix2 x⟩
  rw [chain_eq, slab_entry o inb ho p q]
  show mlpRow (row (a := 256) (View.ld X (Rect.unit (s := S1024x1024) ![o, 0] S256x1024.size inb)) p) w1 w2 w3 w4 w5 q
    = mlpRow (row (a := 1024) X ⟨o + p.val, by omega⟩) w1 w2 w3 w4 w5 q
  refine congrFun (congrArg (fun u => mlpRow u w1 w2 w3 w4 w5) ?_) q
  funext k
  exact congrArg X (slab_entry o inb ho p k)

theorem zero_offsets : (![0, 0] : Fin 2 → Nat) = fun _ => 0 := funext fun a => by fin_cases a <;> rfl

/-- A weight block as the chain receives it — the whole staging buffer loaded and cast to its own shape — is the
    block. -/
theorem weight_block (cast : Vec Ideal S1024x1024 .bf16 → FVec Ideal S1024x1024 .bf16)
    (hcast : ∀ v, cast v = shapeCast S1024x1024 v shapeCasts_S1024x1024_S1024x1024) (x : Vec Ideal S1024x1024 .bf16) :
    cast (View.ld x r0_0) = x := by
  rw [hcast, View.ld_unit_zero (S := S1024x1024) zero_offsets]
  exact shapeCast_self _ _

/-- THE BODY'S RESULT on a block: what the four stores leave in the output's staging buffer is the row-wise network
    of the block of `x` with the five weight blocks. -/
theorem body_result (x0 : Vec Ideal S1024x1024 .f32) (x1 x2 x3 x4 x5 : Vec Ideal S1024x1024 .bf16) (y : S1024x1024.Idx) :
    out0_6 x0 x1 x2 x3 x4 x5 y = mlp (a := 1024) x0 x1 x2 x3 x4 x5 y := by
  unfold out0_6
  rw [stored_first, stored_second, stored_third, stored_fourth,
    weight_block k0_pay2 (fun _ => rfl) x1, weight_block k0_pay3 (fun _ => rfl) x2, weight_block k0_pay4 (fun _ => rfl) x3,
    weight_block k0_pay5 (fun _ => rfl) x4, weight_block k0_pay6 (fun _ => rfl) x5]
  refine View.canon_apply_of_pieces (mlp (a := 1024) x0 x1 x2 x3 x4 x5) _ ?_ y (cover0_6 (F := Ideal) _ _ _ _ y)
  intro p hp x
  rcases List.mem_cons.mp hp with rfl | hp
  · exact chain_slab x0 x1 x2 x3 x4 x5 768 inb_S1024x1024_S256x1024_768_0 (by decide) x
  rcases List.mem_cons.mp hp with rfl | hp
  · exact chain_slab x0 x1 x2 x3 x4 x5 512 inb_S1024x1024_S256x1024_512_0 (by decide) x
  rcases List.mem_cons.mp hp with rfl | hp
  · exact chain_slab x0 x1 x2 x3 x4 x5 256 inb_S1024x1024_S256x1024_256_0 (by decide) x
  rcases List.mem_cons.mp hp with rfl | hp
  · exact chain_slab x0 x1 x2 x3 x4 x5 0 inb_S1024x1024_S256x1024_0_0 (by decide) x
  · exact absurd hp (List.not_mem_nil)

end Cert.KernelIdeal.Block

end
-- ==== Proof.KernelValue.lean ====
/-
  The kernel's result array. The grid has 32 points; at point `t` the pipeline stages rows `1024·t … 1024·t + 1023`
  of `x` and the five weight arrays whole, the body leaves the network of that block in the output's staging buffer
  (`Block.body_result`), and the block is written back to rows `1024·t …` of the result. A weight array, as the region
  finds it, is the argument rounded to bf16 by a host operation — at the exact values, the argument itself. Because
  the network acts on each row by itself, the network of block `t` at `(p, q)` is the network of the whole `x` at
  `(1024·t + p, q)`; the 32 blocks tile the 32768 rows, so the array ends holding the network of `x`.
-/
import proofs.«109479_j69286412419483_2_alg».proof.Proof.Gen.KernelIdeal.Value
import proofs.«109479_j69286412419483_2_alg».proof.Proof.BlockBody
import Idealize.ShloMosaic.Lib.Pipeline.Value
import Idealize.ShloMosaic.Lib.StableHlo.Run

noncomputable section

namespace Cert.KernelIdeal.MlpValue

open Cert.KernelIdeal Cert.KernelIdeal.Gen Cert.KernelIdeal.Value Cert.KernelIdeal.Block
open Idealize.ShloMosaic Idealize.ShloMosaic.TcCoe Idealize.SL.Sem Idealize.ShloMosaic.ValueIdx Idealize.ShloMosaic.StableHlo Cert.Mlp
open Idealize.ShloMosaic.Pipeline (Dat)

variable (m : (ℓ : Loc nD τ sig) → Buf (Elt Ideal) ℓ) (ρ : Dev nD → PrngReg)

/-- The network of the argument arrays, on core `c`. -/
def result (c : Dev nD) : S32768x1024.Idx → EReal :=
  mlp (a := 32768) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The printed index maps over the grid: the block of `x` and the output block at point `t` are block `(t, 0)`; a
    weight window's block is always block `(0, 0)`. -/
theorem index_maps : ∀ t : Fin cfg0.N,
    win0_0.index t (0 : Fin 2) = t.val ∧ win0_0.index t (1 : Fin 2) = 0
    ∧ win0_6.index t (0 : Fin 2) = t.val ∧ win0_6.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The weight arrays as the region finds them: each argument rounded to bf16, which is the argument. -/
theorem weights_found (c : Dev nD) :
    (V m c main_v0 : S1024x1024.Idx → EReal) = m ((c : Thread nD τ).loc main_arg1) ∧
    (V m c main_v1 : S1024x1024.Idx → EReal) = m ((c : Thread nD τ).loc main_arg2) ∧
    (V m c main_v2 : S1024x1024.Idx → EReal) = m ((c : Thread nD τ).loc main_arg3) ∧
    (V m c main_v3 : S1024x1024.Idx → EReal) = m ((c : Thread nD τ).loc main_arg4) ∧
    (V m c main_v4 : S1024x1024.Idx → EReal) = m ((c : Thread nD τ).loc main_arg5) := by
  refine ⟨?_, ?_, ?_, ?_, ?_⟩ <;> (dsimp only [V, hostOps0]; after_results; rfl)

/-- The block of `x` at point `t`: its entry `j` is the argument's entry `i` whenever `i` is `j` moved down by
    `1024·t` rows. -/
theorem x_block (c : Dev nD) (t : Fin cfg0.N) (j : S1024x1024.Idx) (i : S32768x1024.Idx)
    (h0 : (i 0).val = 1024 * t.val + (j 0).val) (h1 : (i 1).val = (j 1).val) :
    (iblk m c 0 t : Vec Ideal S1024x1024 .f32) j = (m ((c : Thread nD τ).loc main_arg0) : S32768x1024.Idx → EReal) i := by
  obtain ⟨e0, e1, -⟩ := index_maps t
  show (V m c main_arg0 : S32768x1024.Idx → EReal) (((cfg0.win 0).blk t).view.emb j) = _
  rw [show (V m c main_arg0 : S32768x1024.Idx → EReal) = m ((c : Thread nD τ).loc main_arg0) from V_main_arg0 m c]
  refine congrArg (m ((c : Thread nD τ).loc main_arg0) : S32768x1024.Idx → EReal) ?_
  funext a
  apply Fin.ext
  match a with
  | ⟨0, _⟩ => show win0_0.index t (0 : Fin 2) * 1024 + 1 * (j 0).val = (i 0).val; omega
  | ⟨1, _⟩ => show win0_0.index t (1 : Fin 2) * 1024 + 1 * (j 1).val = (i 1).val; omega

/-- Weight window 1's block at any point is the whole of argument 1. -/
theorem w1_block (c : Dev nD) (t : Fin cfg0.N) :
    (iblk m c 1 t : Vec Ideal S1024x1024 .bf16) = (m ((c : Thread nD τ).loc main_arg1) : S1024x1024.Idx → EReal) := by
  obtain ⟨-, -, -, -, e0, e1, -, -, -, -, -, -, -, -⟩ := index_maps t
  funext j
  show (V m c main_v0 : S1024x1024.Idx → EReal) (((cfg0.win 1).blk t).view.emb j) = _
  rw [(weights_found m c).1]
  refine congrArg (m ((c : Thread nD τ).loc main_arg1) : S1024x1024.Idx → EReal) ?_
  funext a
  apply Fin.ext
  have hj0 : (j 0).val < 1024 := (j 0).isLt
  have hj1 : (j 1).val < 1024 := (j 1).isLt
  match a with
  | ⟨0, _⟩ => show win0_1.index t (0 : Fin 2) * 1024 + 1 * (j 0).val = (j 0).val; omega
  | ⟨1, _⟩ => show win0_1.index t (1 : Fin 2) * 1024 + 1 * (j 1).val = (j 1).val; omega

/-- Weight window 2's block at any point is the whole of argument 2. -/
theorem w2_block (c : Dev nD) (t : Fin cfg0.N) :
    (iblk m c 2 t : Vec Ideal S1024x1024 .bf16) = (m ((c : Thread nD τ).loc main_arg2) : S1024x1024.Idx → EReal) := by
  obtain ⟨-, -, -, -, -, -, e0, e1, -, -, -, -, -, -⟩ := index_maps t
  funext j
  show (V m c main_v1 : S1024x1024.Idx → EReal) (((cfg0.win 2).blk t).view.emb j) = _
  rw [(weights_found m c).2.1]
  refine congrArg (m ((c : Thread nD τ).loc main_arg2) : S1024x1024.Idx → EReal) ?_
  funext a
  apply Fin.ext
  have hj0 : (j 0).val < 1024 := (j 0).isLt
  have hj1 : (j 1).val < 1024 := (j 1).isLt
  match a with
  | ⟨0, _⟩ => show win0_2.index t (0 : Fin 2) * 1024 + 1 * (j 0).val = (j 0).val; omega
  | ⟨1, _⟩ => show win0_2.index t (1 : Fin 2) * 1024 + 1 * (j 1).val = (j 1).val; omega

/-- Weight window 3's block at any point is the whole of argument 3. -/
theorem w3_block (c : Dev nD) (t : Fin cfg0.N) :
    (iblk m c 3 t : Vec Ideal S1024x1024 .bf16) = (m ((c : Thread nD τ).loc main_arg3) : S1024x1024.Idx → EReal) := by
  obtain ⟨-, -, -, -, -, -, -, -, e0, e1, -, -, -, -⟩ := index_maps t
  funext j
  show (V m c main_v2 : S1024x1024.Idx → EReal) (((cfg0.win 3).blk t).view.emb j) = _
  rw [(weights_found m c).2.2.1]
  refine congrArg (m ((c : Thread nD τ).loc main_arg3) : S1024x1024.Idx → EReal) ?_
  funext a
  apply Fin.ext
  have hj0 : (j 0).val < 1024 := (j 0).isLt
  have hj1 : (j 1).val < 1024 := (j 1).isLt
  match a with
  | ⟨0, _⟩ => show win0_3.index t (0 : Fin 2) * 1024 + 1 * (j 0).val = (j 0).val; omega
  | ⟨1, _⟩ => show win0_3.index t (1 : Fin 2) * 1024 + 1 * (j 1).val = (j 1).val; omega

/-- Weight window 4's block at any point is the whole of argument 4. -/
theorem w4_block (c : Dev nD) (t : Fin cfg0.N) :
    (iblk m c 4 t : Vec Ideal S1024x1024 .bf16) = (m ((c : Thread nD τ).loc main_arg4) : S1024x1024.Idx → EReal) := by
  obtain ⟨-, -, -, -, -, -, -, -, -, -, e0, e1, -, -⟩ := index_maps t
  funext j
  show (V m c main_v3 : S1024x1024.Idx → EReal) (((cfg0.win 4).blk t).view.emb j) = _
  rw [(weights_found m c).2.2.2.1]
  refine congrArg (m ((c : Thread nD τ).loc main_arg4) : S1024x1024.Idx → EReal) ?_
  funext a
  apply Fin.ext
  have hj0 : (j 0).val < 1024 := (j 0).isLt
  have hj1 : (j 1).val < 1024 := (j 1).isLt
  match a with
  | ⟨0, _⟩ => show win0_4.index t (0 : Fin 2) * 1024 + 1 * (j 0).val = (j 0).val; omega
  | ⟨1, _⟩ => show win0_4.index t (1 : Fin 2) * 1024 + 1 * (j 1).val = (j 1).val; omega

/-- Weight window 5's block at any point is the whole of argument 5. -/
theorem w5_block (c : Dev nD) (t : Fin cfg0.N) :
    (iblk m c 5 t : Vec Ideal S1024x1024 .bf16) = (m ((c : Thread nD τ).loc main_arg5) : S1024x1024.Idx → EReal) := by
  obtain ⟨-, -, -, -, -, -, -, -, -, -, -, -, e0, e1⟩ := index_maps t
  funext j
  show (V m c main_v4 : S1024x1024.Idx → EReal) (((cfg0.win 5).blk t).view.emb j) = _
  rw [(weights_found m c).2.2.2.2]
  refine congrArg (m ((c : Thread nD τ).loc main_arg5) : S1024x1024.Idx → EReal) ?_
  funext a
  apply Fin.ext
  have hj0 : (j 0).val < 1024 := (j 0).isLt
  have hj1 : (j 1).val < 1024 := (j 1).isLt
  match a with
  | ⟨0, _⟩ => show win0_5.index t (0 : Fin 2) * 1024 + 1 * (j 0).val = (j 0).val; omega
  | ⟨1, _⟩ => show win0_5.index t (1 : Fin 2) * 1024 + 1 * (j 1).val = (j 1).val; omega

/-- WHAT POINT `t` WRITES BACK is block `t` of the network of the argument arrays. -/
theorem flushed_eq (c : Dev nD) (t : Fin cfg0.N) :
    (dats m 0 c).flushed 6 t = ((cfg0.win 6).blk t).view.read (Elt Ideal) (result m c) := by
  rw [flushed6]
  obtain ⟨-, -, e0, e1, -⟩ := index_maps t
  funext y
  show out0_6 (iblk m c 0 t) (iblk m c 1 t) (iblk m c 2 t) (iblk m c 3 t) (iblk m c 4 t) (iblk m c 5 t) y
    = result m c (((cfg0.win 6).blk t).view.emb y)
  rw [w1_block m c t, w2_block m c t, w3_block m c t, w4_block m c t, w5_block m c t]
  refine (body_result _ _ _ _ _ _ y).trans ?_
  unfold result
  refine mlp_eq_of_row (a := 1024) (b := 32768) _ _ _ _ _ _ _ y (((cfg0.win 6).blk t).view.emb y) (fun k => ?_) ?_
  · refine x_block m c t _ _ ?_ ?_
    · show win0_6.index t (0 : Fin 2) * 1024 + 1 * (y 0).val = 1024 * t.val + (y 0).val; omega
    · rfl
  · show (y 1).val = win0_6.index t (1 : Fin 2) * 1024 + 1 * (y 1).val; omega

/-- An index of the result array is in point `t`'s block iff each coordinate is in the block's range. -/
theorem mem_block (t : Fin cfg0.N) (i : S32768x1024.Idx) :
    i ∈ ((cfg0.win 6).blk t).view.set ↔ ∀ a : Fin 2, win0_6.index t a * S1024x1024.size a ≤ (i a).val
      ∧ (i a).val < win0_6.index t a * S1024x1024.size a + S1024x1024.size a := by
  show i ∈ ((View.whole main_v5).slice (win0_6.rect t)).set ↔ _
  rw [View.set_slice_whole, Rect.mem_set_unit]
  exact Iff.rfl

/-- Row `r` of the result is written back by point `r / 1024`: the blocks cover the array. -/
theorem covered (i : S32768x1024.Idx) :
    ∃ t : Fin cfg0.N, (cfg0.win 6).flush t = true ∧ i ∈ ((cfg0.win 6).blk t).view.set := by
  have hN : cfg0.N = 32 := N_0
  have hi0 : (i 0).val < 32768 := (i 0).isLt
  have hi1 : (i 1).val < 1024 := (i 1).isLt
  let t : Fin cfg0.N := ⟨(i 0).val / 1024, by rw [hN]; omega⟩
  have ht : t.val = (i 0).val / 1024 := rfl
  obtain ⟨-, -, e0, e1, -⟩ := index_maps t
  refine ⟨t, flush0_6 t, ?_⟩
  rw [mem_block]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 1024 ≤ (i 1).val ∧ (i 1).val < win0_6.index t (1 : Fin 2) * 1024 + 1024; omega

/-- THE ARRAY after the run is the network of the argument arrays. -/
theorem final (c : Dev nD) : (dats m 0 c).arrAt 6 cfg0.N = result m c :=
  (dats m 0 c).arrAt_eq_of_cover 6 (result m c) (fun t _ => flushed_eq m c t) covered

/-- The kernel's run: every weakly fair execution terminates with the result array at the network of the argument
    arrays, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.MlpValue

end
-- ==== Proof.RefIsMlp.lean ====
/-
  The reference, stage by stage, is the row-wise network. Its five `dot_general`s contract the left operand's column
  axis with the right operand's row axis, so entry `(p, q)` of each is `∑ k, h (p, k) · w (k, q)`; each of its four
  softplus calls, inlined, is the guarded form `if z − 0 ≠ z − 0 then z + 0 else max z 0 + log1p (exp (−|z − 0|))`
  of the entry, which is `softplus` of it on the extended reals. Ten arrays linked this way are the network
  (`Cert.Mlp.mlp_of_layers`).
-/
import proofs.«109479_j69286412419483_2_alg».proof.Proof.RefReadPatched
import proofs.«109479_j69286412419483_2_alg».proof.Proof.RowMlp

noncomputable section

namespace Cert.ReferenceIdeal.RefValue

open Cert.ReferenceIdeal Cert.ReferenceIdeal.ReadP Idealize.ShloMosaic Idealize.ShloMosaic.ValueIdx Cert.Mlp

/-- The left operand's entry that product 1 pairs with `k` at output entry `i` is `(i 0, k)`. -/
theorem lidx0_eq (i : S32768x1024.Idx) (k : Fin 1024) : lidx_main_v0 i k = ix2 (i 0) k :=
  funext fun a => Fin.ext (by match a with | ⟨0, _⟩ => rfl | ⟨1, _⟩ => rfl)
/-- The right operand's entry is `(k, i 1)`. -/
theorem ridx0_eq (i : S32768x1024.Idx) (k : Fin 1024) : ridx_main_v0 i k = ix2 k (i 1) :=
  funext fun a => Fin.ext (by match a with | ⟨0, _⟩ => rfl | ⟨1, _⟩ => rfl)

/-- The left operand's entry that product 2 pairs with `k` at output entry `i` is `(i 0, k)`. -/
theorem lidx2_eq (i : S32768x1024.Idx) (k : Fin 1024) : lidx_main_v2 i k = ix2 (i 0) k :=
  funext fun a => Fin.ext (by match a with | ⟨0, _⟩ => rfl | ⟨1, _⟩ => rfl)
/-- The right operand's entry is `(k, i 1)`. -/
theorem ridx2_eq (i : S32768x1024.Idx) (k : Fin 1024) : ridx_main_v2 i k = ix2 k (i 1) :=
  funext fun a => Fin.ext (by match a with | ⟨0, _⟩ => rfl | ⟨1, _⟩ => rfl)

/-- The left operand's entry that product 3 pairs with `k` at output entry `i` is `(i 0, k)`. -/
theorem lidx4_eq (i : S32768x1024.Idx) (k : Fin 1024) : lidx_main_v4 i k = ix2 (i 0) k :=
  funext fun a => Fin.ext (by match a with | ⟨0, _⟩ => rfl | ⟨1, _⟩ => rfl)
/-- The right operand's entry is `(k, i 1)`. -/
theorem ridx4_eq (i : S32768x1024.Idx) (k : Fin 1024) : ridx_main_v4 i k = ix2 k (i 1) :=
  funext fun a => Fin.ext (by match a with | ⟨0, _⟩ => rfl | ⟨1, _⟩ => rfl)

/-- The left operand's entry that product 4 pairs with `k` at output entry `i` is `(i 0, k)`. -/
theorem lidx6_eq (i : S32768x1024.Idx) (k : Fin 1024) : lidx_main_v6 i k = ix2 (i 0) k :=
  funext fun a => Fin.ext (by match a with | ⟨0, _⟩ => rfl | ⟨1, _⟩ => rfl)
/-- The right operand's entry is `(k, i 1)`. -/
theorem ridx6_eq (i : S32768x1024.Idx) (k : Fin 1024) : ridx_main_v6 i k = ix2 k (i 1) :=
  funext fun a => Fin.ext (by match a with | ⟨0, _⟩ => rfl | ⟨1, _⟩ => rfl)

/-- The left operand's entry that product 5 pairs with `k` at output entry `i` is `(i 0, k)`. -/
theorem lidx8_eq (i : S32768x1024.Idx) (k : Fin 1024) : lidx_main_v8 i k = ix2 (i 0) k :=
  funext fun a => Fin.ext (by match a with | ⟨0, _⟩ => rfl | ⟨1, _⟩ => rfl)
/-- The right operand's entry is `(k, i 1)`. -/
theorem ridx8_eq (i : S32768x1024.Idx) (k : Fin 1024) : ridx_main_v8 i k = ix2 k (i 1) :=
  funext fun a => Fin.ext (by match a with | ⟨0, _⟩ => rfl | ⟨1, _⟩ => rfl)

variable (x : Rows 32768) (w1 w2 w3 w4 w5 : Wt)

/-- Product 1, entry by entry. -/
theorem product1 (j : S32768x1024.Idx) :
    val_main_v0 (F := Ideal) x w1 j = ∑ k : Fin 1024, x (ix2 (j 0) k) * w1 (ix2 k (j 1)) := by
  rw [val_main_v0_apply]
  refine Finset.sum_congr rfl fun k _ => ?_
  rw [lidx0_eq j k, ridx0_eq j k]
  rfl

/-- Softplus call 1, entry by entry: the guarded form of the entry. -/
theorem softplus1 (j : S32768x1024.Idx) :
    val_main_v1 (F := Ideal) x w1 j = softplus (val_main_v0 (F := Ideal) x w1 j) := by
  simp only [val_main_v1_apply, val_main_call0_v4_apply, val_main_call0_v6_apply, val_main_call0_v11_apply, val_main_call0_v1_apply, val_main_call0_v10_apply, val_main_call0_v9_apply, val_main_call0_v8_apply, val_main_call0_v7_apply, val_main_call0_v3_apply, val_main_call0_v0_apply, val_main_call0_v2_apply, val_main_call0_v5_apply, val_main_call0_cst_apply]
  exact softplus_of_guarded _

/-- Product 2, entry by entry. -/
theorem product2 (j : S32768x1024.Idx) :
    val_main_v2 (F := Ideal) x w1 w2 j = ∑ k : Fin 1024, (val_main_v1 (F := Ideal) x w1) (ix2 (j 0) k) * w2 (ix2 k (j 1)) := by
  rw [val_main_v2_apply]
  refine Finset.sum_congr rfl fun k _ => ?_
  rw [lidx2_eq j k, ridx2_eq j k]
  rfl

/-- Softplus call 2, entry by entry: the guarded form of the entry. -/
theorem softplus2 (j : S32768x1024.Idx) :
    val_main_v3 (F := Ideal) x w1 w2 j = softplus (val_main_v2 (F := Ideal) x w1 w2 j) := by
  simp only [val_main_v3_apply, val_main_call1_v4_apply, val_main_call1_v6_apply, val_main_call1_v11_apply, val_main_call1_v1_apply, val_main_call1_v10_apply, val_main_call1_v9_apply, val_main_call1_v8_apply, val_main_call1_v7_apply, val_main_call1_v3_apply, val_main_call1_v0_apply, val_main_call1_v2_apply, val_main_call1_v5_apply, val_main_call1_cst_apply]
  exact softplus_of_guarded _

/-- Product 3, entry by entry. -/
theorem product3 (j : S32768x1024.Idx) :
    val_main_v4 (F := Ideal) x w1 w2 w3 j = ∑ k : Fin 1024, (val_main_v3 (F := Ideal) x w1 w2) (ix2 (j 0) k) * w3 (ix2 k (j 1)) := by
  rw [val_main_v4_apply]
  refine Finset.sum_congr rfl fun k _ => ?_
  rw [lidx4_eq j k, ridx4_eq j k]
  rfl

/-- Softplus call 3, entry by entry: the guarded form of the entry. -/
theorem softplus3 (j : S32768x1024.Idx) :
    val_main_v5 (F := Ideal) x w1 w2 w3 j = softplus (val_main_v4 (F := Ideal) x w1 w2 w3 j) := by
  simp only [val_main_v5_apply, val_main_call2_v4_apply, val_main_call2_v6_apply, val_main_call2_v11_apply, val_main_call2_v1_apply, val_main_call2_v10_apply, val_main_call2_v9_apply, val_main_call2_v8_apply, val_main_call2_v7_apply, val_main_call2_v3_apply, val_main_call2_v0_apply, val_main_call2_v2_apply, val_main_call2_v5_apply, val_main_call2_cst_apply]
  exact softplus_of_guarded _

/-- Product 4, entry by entry. -/
theorem product4 (j : S32768x1024.Idx) :
    val_main_v6 (F := Ideal) x w1 w2 w3 w4 j = ∑ k : Fin 1024, (val_main_v5 (F := Ideal) x w1 w2 w3) (ix2 (j 0) k) * w4 (ix2 k (j 1)) := by
  rw [val_main_v6_apply]
  refine Finset.sum_congr rfl fun k _ => ?_
  rw [lidx6_eq j k, ridx6_eq j k]
  rfl

/-- Softplus call 4, entry by entry: the guarded form of the entry. -/
theorem softplus4 (j : S32768x1024.Idx) :
    val_main_v7 (F := Ideal) x w1 w2 w3 w4 j = softplus (val_main_v6 (F := Ideal) x w1 w2 w3 w4 j) := by
  simp only [val_main_v7_apply, val_main_call3_v4_apply, val_main_call3_v6_apply, val_main_call3_v11_apply, val_main_call3_v1_apply, val_main_call3_v10_apply, val_main_call3_v9_apply, val_main_call3_v8_apply, val_main_call3_v7_apply, val_main_call3_v3_apply, val_main_call3_v0_apply, val_main_call3_v2_apply, val_main_call3_v5_apply, val_main_call3_cst_apply]
  exact softplus_of_guarded _

/-- Product 5, entry by entry. -/
theorem product5 (j : S32768x1024.Idx) :
    val_main_v8 (F := Ideal) x w1 w2 w3 w4 w5 j = ∑ k : Fin 1024, (val_main_v7 (F := Ideal) x w1 w2 w3 w4) (ix2 (j 0) k) * w5 (ix2 k (j 1)) := by
  rw [val_main_v8_apply]
  refine Finset.sum_congr rfl fun k _ => ?_
  rw [lidx8_eq j k, ridx8_eq j k]
  rfl

/-- The reference's last stage is the row-wise network of its arguments. -/
theorem reference_is_mlp :
    val_main_v8 (F := Ideal) x w1 w2 w3 w4 w5 = mlp (a := 32768) x w1 w2 w3 w4 w5 :=
  mlp_of_layers (a := 32768) x (val_main_v0 (F := Ideal) x w1) (val_main_v1 (F := Ideal) x w1)
    (val_main_v2 (F := Ideal) x w1 w2) (val_main_v3 (F := Ideal) x w1 w2)
    (val_main_v4 (F := Ideal) x w1 w2 w3) (val_main_v5 (F := Ideal) x w1 w2 w3)
    (val_main_v6 (F := Ideal) x w1 w2 w3 w4) (val_main_v7 (F := Ideal) x w1 w2 w3 w4)
    (val_main_v8 (F := Ideal) x w1 w2 w3 w4 w5) w1 w2 w3 w4 w5
    (product1 x w1) (softplus1 x w1) (product2 x w1 w2) (softplus2 x w1 w2) (product3 x w1 w2 w3) (softplus3 x w1 w2 w3)
    (product4 x w1 w2 w3 w4) (softplus4 x w1 w2 w3 w4) (product5 x w1 w2 w3 w4 w5)

end Cert.ReferenceIdeal.RefValue

end
-- ==== Proof.lean ====
/-
  A five-layer perceptron, `h ↦ softplus (h · w)` four times and a last product `h · w₅`, over `x` of 32768 rows and
  1024 columns and five 1024 × 1024 weight matrices, computed two ways.
  The kernel rounds the weights to bf16 on the host, walks the rows in 32 blocks of 1024, and inside a block sends
  each of four slabs of 256 rows through the chain of five products (left operand rounded to bf16, accumulated into
  zeros) and four softplus stages `max z 0 + log1p (exp (0 − |z|))`. The reference multiplies whole arrays and calls
  jax's softplus, `if z − 0 ≠ z − 0 then z + 0 else max z 0 + log1p (exp (−|z − 0|))`.
  At the exact extended reals rounding is the identity, both products are the sum `∑ k, h (p, k) · w (k, q)`, and both
  softplus forms are `max z 0 + log (1 + exp (−|z|))` — `0 − a = −a`, `z − 0 = z`, and no extended real differs from
  itself — so both programs apply ONE function, row by row (Proof/RowMlp.lean); the tiling into blocks and slabs
  only re-indexes rows. No law that needs finiteness (distributivity, cancellation) is used, so the precondition is
  never opened.
  The frames of the two kernel programs are the generated ones; the reference's frame is its run with the result
  dropped; `preserves` has no conjunct (the idealization rewrote nothing).
-/
import proofs.«109479_j69286412419483_2_alg».proof.Defs
import proofs.«109479_j69286412419483_2_alg».proof.Proof.Gen.Kernel
import proofs.«109479_j69286412419483_2_alg».proof.Proof.Gen.Kernel.Skeleton
import proofs.«109479_j69286412419483_2_alg».proof.Proof.Gen.Kernel.Launch
import proofs.«109479_j69286412419483_2_alg».proof.Proof.Gen.Kernel.Points
import proofs.«109479_j69286412419483_2_alg».proof.Proof.Gen.Kernel.Frame
import proofs.«109479_j69286412419483_2_alg».proof.Proof.Gen.KernelIdeal
import proofs.«109479_j69286412419483_2_alg».proof.Proof.Gen.KernelIdeal.Skeleton
import proofs.«109479_j69286412419483_2_alg».proof.Proof.Gen.KernelIdeal.Launch
import proofs.«109479_j69286412419483_2_alg».proof.Proof.Gen.KernelIdeal.Points
import proofs.«109479_j69286412419483_2_alg».proof.Proof.Gen.KernelIdeal.Frame
import proofs.«109479_j69286412419483_2_alg».proof.Proof.Gen.ReferenceIdeal
import proofs.«109479_j69286412419483_2_alg».proof.Proof.Gen.Pre_finite_inputs
import proofs.«109479_j69286412419483_2_alg».proof.Proof.KernelValue
import proofs.«109479_j69286412419483_2_alg».proof.Proof.RefIsMlp
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- Both programs end with the row-wise network of the arguments in their result: the kernel's blocks tile it
    (`MlpValue.run`), the reference's last stage is it (`RefValue.reference_is_mlp`), and the arguments agree. -/
theorem algebraic : Cert.algebraic_KernelIdeal_ReferenceIdeal := by
  intro m ρ m' ρ' _ hagree
  refine ⟨fun c => Cert.KernelIdeal.MlpValue.result m c, Cert.KernelIdeal.MlpValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5⟩ := hagree c
  refine (Cert.ReferenceIdeal.ReadP.val_main_v8_eq m' c).trans ?_
  refine (Cert.ReferenceIdeal.RefValue.reference_is_mlp _ _ _ _ _ _).trans ?_
  unfold Cert.KernelIdeal.MlpValue.result
  rw [a0, a1, a2, a3, a4, a5]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
